-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x4 : Shape := ⟨2, ![2048, 4]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_

variable [Facts]

def fn {F : FTy → Type} [FloatOps F] (main_arg0 : FVec F S4x4096x2048 .f32) (main_arg1 : FVec F S2048x4 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  main_v8
-- ==== Kernel.lean ====
abbrev S4x4096x2048 : Shape := ⟨3, ![4, 4096, 2048]⟩
abbrev S2048x4 : Shape := ⟨2, ![2048, 4]⟩
abbrev S4x2048 : Shape := ⟨2, ![4, 2048]⟩
abbrev S4x1x2048 : Shape := ⟨3, ![4, 1, 2048]⟩
abbrev S1x512x2048 : Shape := ⟨3, ![1, 512, 2048]⟩
abbrev S1x3x2048 : Shape := ⟨3, ![1, 3, 2048]⟩
abbrev S1x1x2048 : Shape := ⟨3, ![1, 1, 2048]⟩
abbrev S1x6x2048 : Shape := ⟨3, ![1, 6, 2048]⟩
abbrev S4x3x2048 : Shape := ⟨3, ![4, 3, 2048]⟩
abbrev S4x2048x3 : Shape := ⟨3, ![4, 2048, 3]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S4x2048, .f32⟩
  | .hbm, ⟨3, _⟩ => ⟨S4x1x2048, .f32⟩
  | .hbm, ⟨4, _⟩ => ⟨S4x4096x2048, .f32⟩
  | .hbm, ⟨5, _⟩ => ⟨S4x3x2048, .f32⟩
  | .hbm, ⟨6, _⟩ => ⟨S4x2048x3, .f32⟩
  | .local _ .vmem, ⟨0, _⟩ => ⟨S1x512x2048, .f32⟩
  | .local _ .vmem, ⟨1, _⟩ => ⟨S1x512x2048, .f32⟩
  | .local _ .vmem, ⟨2, _⟩ => ⟨S4x1x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x3x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S2048x4_S4x2048_1_0 : S2048x4.Transposes [1, 0] S4x2048
  shapeCasts_S4x2048_S4x1x2048 : S4x2048.ShapeCasts S4x1x2048
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S1x3x2048 : S1x3x2048.ShapeCasts S1x3x2048
  inb_S1x512x2048_S1x512x2048_0_0_0 : ∀ a, (![0, 0, 0] : Fin 3 → Nat) a + S1x512x2048.size a ≤ S1x512x2048.size a
  h_S1x512x2048 : 0 < S1x512x2048.numel
  inb_S4x1x2048_S4x1x2048_0_0_0 : ∀ a, (![0, 0, 0] : Fin 3 → Nat) a + S4x1x2048.size a ≤ S4x1x2048.size a
  h_S4x1x2048 : 0 < S4x1x2048.numel
  shapeCasts_S4x1x2048_S4x1x2048 : S4x1x2048.ShapeCasts S4x1x2048
  slices_S4x1x2048_o0_0_0_S1x1x2048 : S4x1x2048.Slices ![0, 0, 0] S1x1x2048
  slices_S4x1x2048_o1_0_0_S1x1x2048 : S4x1x2048.Slices ![1, 0, 0] S1x1x2048
  slices_S4x1x2048_o2_0_0_S1x1x2048 : S4x1x2048.Slices ![2, 0, 0] S1x1x2048
  slices_S4x1x2048_o3_0_0_S1x1x2048 : S4x1x2048.Slices ![3, 0, 0] S1x1x2048
  rotates_S1x512x2048_d1 : S1x512x2048.Rotates 1 none
  broadcasts_S1x1x2048_S1x512x2048 : S1x1x2048.Broadcasts S1x512x2048
  slices_S1x512x2048_o0_0_0_S1x3x2048 : S1x512x2048.Slices ![0, 0, 0] S1x3x2048
  concatenates_S1x3x2048_S1x3x2048_S1x6x2048_d1 : Shape.Concatenates [S1x3x2048, S1x3x2048] S1x6x2048 1
  slices_S1x6x2048_o0_0_0_S1x3x2048 : S1x6x2048.Slices ![0, 0, 0] S1x3x2048
  broadcasts_S1x1x2048_S1x3x2048 : S1x1x2048.Broadcasts S1x3x2048
  slices_S1x6x2048_o0_1_0_S1x3x2048 : S1x6x2048.Slices ![0, 1, 0] S1x3x2048
  slices_S1x6x2048_o0_2_0_S1x3x2048 : S1x6x2048.Slices ![0, 2, 0] S1x3x2048
  slices_S1x6x2048_o0_3_0_S1x3x2048 : S1x6x2048.Slices ![0, 3, 0] S1x3x2048
  inb_S1x512x2048_S1x3x2048_0_0_0 : ∀ a, (![0, 0, 0] : Fin 3 → Nat) a + S1x3x2048.size a ≤ S1x512x2048.size a
  slices_S1x512x2048_o0_509_0_S1x3x2048 : S1x512x2048.Slices ![0, 509, 0] S1x3x2048
  slices_S4x4096x2048_S4x3x2048_0_4093_0 : S4x4096x2048.Slices ![0, 4093, 0] S4x3x2048
  transposes_S4x3x2048_S4x2048x3_0_2_1 : S4x3x2048.Transposes [0, 2, 1] S4x2048x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1x2048.size a ≤ S4x1x2048.size a
  hwx0_1 : ∀ i : grid0.Coords, EltTy.bits .f32 = 32 ∨ (Rect.block (s := S4x1x2048) S4x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S4x4096x2048.size a
  hwx0_2 : ∀ i : grid0.Coords, EltTy.bits .f32 = 32 ∨ (Rect.block (s := S4x4096x2048) S1x512x2048.size (cc0_transform_2 i) (hinb0_2 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x4 : Shape := ⟨2, ![2048, 4]⟩
abbrev S_ : Shape := ⟨0, ![]⟩
abbrev S4x4099x2048 : Shape := ⟨3, ![4, 4099, 2048]⟩
abbrev S2048x1 : Shape := ⟨2, ![2048, 1]⟩
abbrev S2048 : Shape := ⟨1, ![2048]⟩
abbrev S1x1x2048 : Shape := ⟨3, ![1, 1, 2048]⟩
abbrev S4x3x2048 : Shape := ⟨3, ![4, 3, 2048]⟩
abbrev S4x2048x3 : Shape := ⟨3, ![4, 2048, 3]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S_, .i32⟩
  | .hbm, ⟨3, _⟩ => ⟨S_, .f32⟩
  | .hbm, ⟨4, _⟩ => ⟨S4x4099x2048, .f32⟩
  | .hbm, ⟨5, _⟩ => ⟨S4x4096x2048, .f32⟩
  | .hbm, ⟨6, _⟩ => ⟨S2048x1, .f32⟩
  | .hbm, ⟨7, _⟩ => ⟨S2048, .f32⟩
  | .hbm, ⟨8, _⟩ => ⟨S1x1x2048, .f32⟩
  | .hbm, ⟨9, _⟩ => ⟨S4x4096x2048, .f32⟩
  | .hbm, ⟨10, _⟩ => ⟨S4x4096x2048, .f32⟩
  | .hbm, ⟨11, _⟩ => ⟨S_, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S2048x1, .f32⟩
  | .hbm, ⟨16, _⟩ => ⟨S2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S2048x1, .f32⟩
  | .hbm, ⟨23, _⟩ => ⟨S2048, .f32⟩
  | .hbm, ⟨24, _⟩ => ⟨S1x1x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S2048x1, .f32⟩
  | .hbm, ⟨30, _⟩ => ⟨S2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x3x2048, .f32⟩
  | .hbm, ⟨36, _⟩ => ⟨S4x2048x3, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]

class Facts₀ : Prop where
  pads_S4x4096x2048_S4x4099x2048_000_300_000 : S4x4096x2048.Pads (![0, 3, 0] : Fin 3 → Nat) ![0, 0, 0] ![0, 0, 0] S4x4099x2048
  h_S_ : 0 < S_.numel
  slices_S4x4099x2048_S4x4096x2048_0_0_0 : S4x4099x2048.Slices ![0, 0, 0] S4x4096x2048
  slices_S2048x4_S2048x1_0_0 : S2048x4.Slices ![0, 0] S2048x1
  shapeCasts_S2048x1_S2048 : S2048x1.ShapeCasts S2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S_S4x4096x2048 : S_.BroadcastsInDim S4x4096x2048 (![] : Fin 0 → Fin S4x4096x2048.rank)
  slices_S4x4099x2048_S4x4096x2048_0_1_0 : S4x4099x2048.Slices ![0, 1, 0] S4x4096x2048
  slices_S2048x4_S2048x1_0_1 : S2048x4.Slices ![0, 1] S2048x1
  slices_S4x4099x2048_S4x4096x2048_0_2_0 : S4x4099x2048.Slices ![0, 2, 0] S4x4096x2048
  slices_S2048x4_S2048x1_0_2 : S2048x4.Slices ![0, 2] S2048x1
  slices_S4x4099x2048_S4x4096x2048_0_3_0 : S4x4099x2048.Slices ![0, 3, 0] S4x4096x2048
  slices_S2048x4_S2048x1_0_3 : S2048x4.Slices ![0, 3] S2048x1
  slices_S4x4099x2048_S4x3x2048_0_4096_0 : S4x4099x2048.Slices ![0, 4096, 0] S4x3x2048
  transposes_S4x3x2048_S4x2048x3_0_2_1 : S4x3x2048.Transposes [0, 2, 1] S4x2048x3

variable [Facts₀]

class Facts : Prop extends Facts₀ where

variable [Facts]
-- ==== Proof.Spec.lean ====
/-
  The causal depthwise convolution over time, as one function of the argument arrays.

  `x` is [4, 4096, 2048] (batch, time, channel) and `w` is [2048, 4] (channel, tap). With `x` padded on the
  left of the time axis by three zeros, entry `(b, t, ch)` of the result is
      ((((0 + xp[t] · w[ch,0]) + xp[t+1] · w[ch,1]) + xp[t+2] · w[ch,2]) + xp[t+3] · w[ch,3])
  where `xp[s]` is `x[b, s - 3, ch]` for `3 ≤ s` and `0` before. The second result holds the last three
  time steps of `x`, time and channel exchanged.

  The two programs add the four products in different orders and multiply with the factors exchanged; over
  the extended reals addition and multiplication are commutative and associative, which is all that is used.
-/
import Idealize.ShloMosaic.PureOps.Ideal
import Idealize.ShloMosaic.Lib.ValueIdx

noncomputable section

namespace Cert.Conv

open Idealize.ShloMosaic Idealize.ShloMosaic.ValueIdx

abbrev SX : Shape := ⟨3, ![4, 4096, 2048]⟩
abbrev SW : Shape := ⟨2, ![2048, 4]⟩
abbrev SC : Shape := ⟨3, ![4, 2048, 3]⟩

/-- The left-padded input at padded time `s`: zero for `s < 3`, `x[b, s - 3, ch]` after. -/
def padAt (x : SX.Idx → EReal) (b : Fin 4) (s : ℕ) (ch : Fin 2048) : EReal :=
  if h : 3 ≤ s ∧ s - 3 < 4096 then x (ix3 b ⟨s - 3, h.2⟩ ch) else 0

theorem padAt_of_ge (x : SX.Idx → EReal) (b : Fin 4) (s : ℕ) (ch : Fin 2048) (h3 : 3 ≤ s) (hs : s - 3 < 4096) :
    padAt x b s ch = x (ix3 b ⟨s - 3, hs⟩ ch) := by
  unfold padAt; rw [dif_pos ⟨h3, hs⟩]

theorem padAt_of_lt (x : SX.Idx → EReal) (b : Fin 4) (s : ℕ) (ch : Fin 2048) (h3 : s < 3) :
    padAt x b s ch = 0 := by
  unfold padAt; rw [dif_neg (fun h => by omega)]

/-- The padded input at a padded time given as an input time plus three. -/
theorem padAt_eq (x : SX.Idx → EReal) (b : Fin 4) (s : ℕ) (ch : Fin 2048) (u : Fin 4096) (h : s = u.val + 3) :
    padAt x b s ch = x (ix3 b u ch) := by
  subst h
  rw [padAt_of_ge x b (u.val + 3) ch (by omega) (by have := u.isLt; omega)]
  exact congrArg x (congrArg (fun v => ix3 b v ch) (Fin.ext (by show u.val + 3 - 3 = u.val; omega)))

/-- One entry of the convolution. -/
def convAt (x : SX.Idx → EReal) (w : SW.Idx → EReal) (b : Fin 4) (t : Fin 4096) (ch : Fin 2048) : EReal :=
  0 + padAt x b t.val ch * w (ix2 ch 0) + padAt x b (t.val + 1) ch * w (ix2 ch 1)
    + padAt x b (t.val + 2) ch * w (ix2 ch 2) + padAt x b (t.val + 3) ch * w (ix2 ch 3)

/-- The convolution, as an array. -/
def conv (x : SX.Idx → EReal) (w : SW.Idx → EReal) : SX.Idx → EReal :=
  fun j => convAt x w (j 0) (j 1) (j 2)

/-- The last three time steps, as [batch, channel, step]. -/
def lastSteps (x : SX.Idx → EReal) : SC.Idx → EReal :=
  fun j => x (ix3 (j 0) ⟨4093 + (j 2).val, by have h : (j 2).val < 3 := (j 2).isLt; omega⟩ (j 1))

/-- The four products added newest tap first, weights on the left: the same sum. -/
theorem newest_first (a0 a1 a2 a3 w0 w1 w2 w3 : EReal) :
    w3 * a3 + w2 * a2 + w1 * a1 + w0 * a0 = 0 + a0 * w0 + a1 * w1 + a2 * w2 + a3 * w3 := by
  rw [zero_add, mul_comm w3, mul_comm w2, mul_comm w1, mul_comm w0]
  ac_rfl

/-- The four products added oldest tap first, weights on the left: the same sum. -/
theorem oldest_first (a0 a1 a2 a3 w0 w1 w2 w3 : EReal) :
    w0 * a0 + w1 * a1 + w2 * a2 + w3 * a3 = 0 + a0 * w0 + a1 * w1 + a2 * w2 + a3 * w3 := by
  rw [zero_add, mul_comm w3, mul_comm w2, mul_comm w1, mul_comm w0]

end Cert.Conv

end
-- ==== Proof.LibCanonUnit.lean ====
/-
  The contents a list of stores leaves (`View.canon`), read at an index, when the newest store's rectangle is
  a unit-stride box given by offsets and sizes: inside the box the newest payload at the index less the offsets,
  outside it what the older stores left. Stated over abstract offsets and sizes.
-/
import Idealize.ShloMosaic.Lib.Pipeline.FrameBody

namespace Idealize.ShloMosaic

namespace View

variable {s : Shape} {e : EltTy} {Val : EltTy → Type}

/-- Inside the newest store's box: its payload at the local index. -/
theorem canon_cons_unit_of_mem [∀ e, Nonempty (Val e)] {off size : Fin s.rank → ℕ} (inb : ∀ a, off a + size a ≤ s.size a)
    (w : (Rect.unit off size inb).shape.Idx → Val e) (L : List (Piece Val s e)) (y : s.Idx)
    (x : (Rect.unit off size inb).shape.Idx) (hx : ∀ a, (y a).val = off a + (x a).val) :
    View.canon ((⟨Rect.unit off size inb, w⟩ : Piece Val s e) :: L) y = w x := by
  have hy : (Rect.unit off size inb).emb x = y := funext fun a => Fin.ext (by
    show off a + 1 * (x a).val = (y a).val
    rw [hx a, Nat.one_mul])
  exact (congrArg (View.canon ((⟨Rect.unit off size inb, w⟩ : Piece Val s e) :: L)) hy.symm).trans
    (View.canon_cons_emb (Rect.unit off size inb) w L x)

/-- Outside the newest store's box on some axis: what the older stores left. -/
theorem canon_cons_unit_of_not_mem [∀ e, Nonempty (Val e)] {off size : Fin s.rank → ℕ} (inb : ∀ a, off a + size a ≤ s.size a)
    (w : (Rect.unit off size inb).shape.Idx → Val e) (L : List (Piece Val s e)) (y : s.Idx)
    (a : Fin s.rank) (ha : (y a).val < off a ∨ off a + size a ≤ (y a).val) :
    View.canon ((⟨Rect.unit off size inb, w⟩ : Piece Val s e) :: L) y = View.canon L y := by
  refine View.canon_cons_of_not_mem _ L (fun hm => ?_)
  have h := (Rect.mem_set_unit (inb := inb)).mp hm a
  omega

end View

end Idealize.ShloMosaic
-- ==== Proof.Pieces.lean ====
/-
  What one run of the body leaves in its output block and in the carried three-row buffer, as values.

  The body stores the whole 512-row block computed from the rolled copies of the input block, then overwrites
  rows 0, 1, 2 with the values computed from the six-row window made of the carried buffer followed by the
  block's first three rows; last it stores the block's rows 509, 510, 511 into the carried buffer. At the
  first tile of a batch the carried buffer is first filled with zeros. So the output block is the same
  function `tile` of the input block, the weights and the carried rows in both cases — the carried rows
  being zeros at a first tile —, and the carried buffer always ends at the input block's last three rows.
-/
import proofs.«109207_j21449066676463_2_alg».proof.Proof.Gen.KernelIdeal.Frame
import Idealize.ShloMosaic.Lib.Pipeline.Value
import Idealize.ShloMosaic.Lib.Tactic
import proofs.«109207_j21449066676463_2_alg».proof.Proof.LibCanonUnit

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0, 0] : Fin 3 → Nat) = fun _ => 0 := funext fun a => by fin_cases a <;> rfl

/-- Rows 0, 1, 2 of the output block: the four products over the six-row window `[carried rows; first three rows]`. -/
def edgeRows (x0 : Vec F S1x512x2048 .f32) (x1 : Vec F S4x1x2048 .f32) (hl : Vec F S1x3x2048 .f32) : Vec F S1x3x2048 .f32 :=
  k0_pay1 (k0_pay8 x1) (k0_pay10 x0 hl) (k0_pay11 x0 hl x1)

/-- The output block after the body: the rolled formula everywhere, rows 0, 1, 2 overwritten. -/
def tile (x0 : Vec F S1x512x2048 .f32) (x1 : Vec F S4x1x2048 .f32) (hl : Vec F S1x3x2048 .f32) : Vec F S1x512x2048 .f32 :=
  View.canon [⟨Rect.unit ![0, 0, 0] ![1, 3, 2048] Gen.inb_S1x512x2048_S1x3x2048_0_0_0, edgeRows x0 x1 hl⟩,
    ⟨Rect.unit ![0, 0, 0] ![1, 512, 2048] Gen.inb_S1x512x2048_S1x512x2048_0_0_0, k0_pay9 x0 x1⟩]

/-- At a first tile the output block is `tile` over zero carried rows. -/
theorem out_first (c : Dev nD) (i : grid0.Coords) (a2 : Memref sig .tc .vmem S1x512x2048 .f32) (h2 : a2.IsWhole) (a3 : Memref sig .tc .vmem S4x1x2048 .f32) (h3 : a3.IsWhole) (a4 : Memref sig .tc .vmem S1x512x2048 .f32) (h4 : a4.IsWhole) (a5 : Memref sig .tc .vmem S1x3x2048 .f32) (h5 : a5.IsWhole) (hc : cond0_0 i)
    (x0 : Vec F S1x512x2048 .f32) (x1 : Vec F S4x1x2048 .f32) :
    out0_A_2 c i a2 h2 a3 h3 a4 h4 a5 h5 hc x0 x1 = tile x0 x1 k0_pay3 := by
  unfold out0_A_2
  rw [View.read_writes_eq_canon _ _ _ (cover0_A_2 c i a2 h2 a3 h3 a4 h4 a5 h5 hc x0 x1)]
  unfold kernelRun0_A
  dsimp only
  sl_unfold_words
  rw [View.readCov_unit_zero (S := S1x3x2048) _ hz]
  simp only [View.readAt_eq_ld, h2.read_unread, h3.read_unread, View.ld_unit_zero (S := S1x512x2048) hz,
    View.ld_unit_zero (S := S4x1x2048) hz]
  rfl

/-- At a later tile the output block is `tile` over the rows the tile before left. -/
theorem out_later (c : Dev nD) (i : grid0.Coords) (a2 : Memref sig .tc .vmem S1x512x2048 .f32) (h2 : a2.IsWhole) (a3 : Memref sig .tc .vmem S4x1x2048 .f32) (h3 : a3.IsWhole) (a4 : Memref sig .tc .vmem S1x512x2048 .f32) (h4 : a4.IsWhole) (a5 : Memref sig .tc .vmem S1x3x2048 .f32) (h5 : a5.IsWhole) (hc : ¬cond0_0 i)
    (x0 : Vec F S1x512x2048 .f32) (x1 : Vec F S4x1x2048 .f32) (xs0 : Vec F S1x3x2048 .f32) :
    out0_B_2 c i a2 h2 a3 h3 a4 h4 a5 h5 hc x0 x1 xs0 = tile x0 x1 xs0 := by
  unfold out0_B_2
  rw [View.read_writes_eq_canon _ _ _ (cover0_B_2 c i a2 h2 a3 h3 a4 h4 a5 h5 hc x0 x1 xs0)]
  unfold kernelRun0_B
  dsimp only
  sl_unfold_words
  simp only [View.readAt_eq_ld, h2.read_unread, h3.read_unread, h5.read_unread, View.ld_unit_zero (S := S1x512x2048) hz,
    View.ld_unit_zero (S := S4x1x2048) hz, View.ld_unit_zero (S := S1x3x2048) hz]
  rfl

/-- At a first tile the carried buffer ends at the block's last three rows. -/
theorem carry_first (c : Dev nD) (i : grid0.Coords) (a2 : Memref sig .tc .vmem S1x512x2048 .f32) (h2 : a2.IsWhole) (a3 : Memref sig .tc .vmem S4x1x2048 .f32) (h3 : a3.IsWhole) (a4 : Memref sig .tc .vmem S1x512x2048 .f32) (h4 : a4.IsWhole) (a5 : Memref sig .tc .vmem S1x3x2048 .f32) (h5 : a5.IsWhole) (hc : cond0_0 i)
    (x0 : Vec F S1x512x2048 .f32) (x1 : Vec F S4x1x2048 .f32) :
    sout0_A_0 c i a2 h2 a3 h3 a4 h4 a5 h5 hc x0 x1 = k0_pay2 x0 := by
  unfold sout0_A_0
  rw [View.read_writes_eq_canon _ _ _ (scover0_A_0 c i a2 h2 a3 h3 a4 h4 a5 h5 hc x0 x1)]
  unfold kernelRun0_A
  dsimp only
  sl_unfold_words
  rw [View.canon_cons_unit_zero (S := S1x3x2048) hz]
  simp only [View.readAt_eq_ld, h2.read_unread, View.ld_unit_zero (S := S1x512x2048) hz]

/-- At a later tile too. -/
theorem carry_later (c : Dev nD) (i : grid0.Coords) (a2 : Memref sig .tc .vmem S1x512x2048 .f32) (h2 : a2.IsWhole) (a3 : Memref sig .tc .vmem S4x1x2048 .f32) (h3 : a3.IsWhole) (a4 : Memref sig .tc .vmem S1x512x2048 .f32) (h4 : a4.IsWhole) (a5 : Memref sig .tc .vmem S1x3x2048 .f32) (h5 : a5.IsWhole) (hc : ¬cond0_0 i)
    (x0 : Vec F S1x512x2048 .f32) (x1 : Vec F S4x1x2048 .f32) (xs0 : Vec F S1x3x2048 .f32) :
    sout0_B_0 c i a2 h2 a3 h3 a4 h4 a5 h5 hc x0 x1 xs0 = k0_pay2 x0 := by
  unfold sout0_B_0
  rw [View.read_writes_eq_canon _ _ _ (scover0_B_0 c i a2 h2 a3 h3 a4 h4 a5 h5 hc x0 x1 xs0)]
  unfold kernelRun0_B
  dsimp only
  sl_unfold_words
  rw [View.canon_unit_zero (S := S1x3x2048) hz]
  simp only [View.readAt_eq_ld, h2.read_unread, View.ld_unit_zero (S := S1x512x2048) hz]

/-- The output block in rows 0, 1, 2 is `edgeRows`; -/
theorem tile_edge (x0 : Vec F S1x512x2048 .f32) (x1 : Vec F S4x1x2048 .f32) (hl : Vec F S1x3x2048 .f32)
    (y : S1x512x2048.Idx) (x : S1x3x2048.Idx) (hx : ∀ a, (y a).val = (x a).val) :
    tile x0 x1 hl y = edgeRows x0 x1 hl x := by
  unfold tile
  generalize edgeRows x0 x1 hl = w1
  generalize k0_pay9 x0 x1 = w2
  refine View.canon_cons_unit_of_mem (s := S1x512x2048) (off := ![0, 0, 0]) (size := ![1, 3, 2048])
    Gen.inb_S1x512x2048_S1x3x2048_0_0_0 w1 _ y x (fun a => ?_)
  match a with
  | ⟨0, _⟩ => show (y 0).val = 0 + (x 0).val; rw [hx 0]; omega
  | ⟨1, _⟩ => show (y 1).val = 0 + (x 1).val; rw [hx 1]; omega
  | ⟨2, _⟩ => show (y 2).val = 0 + (x 2).val; rw [hx 2]; omega

/-- from row 3 on it is the rolled formula. -/
theorem tile_rest (x0 : Vec F S1x512x2048 .f32) (x1 : Vec F S4x1x2048 .f32) (hl : Vec F S1x3x2048 .f32)
    (y : S1x512x2048.Idx) (hy : 3 ≤ (y 1).val) :
    tile x0 x1 hl y = k0_pay9 x0 x1 y := by
  unfold tile
  generalize edgeRows x0 x1 hl = w1
  generalize k0_pay9 x0 x1 = w2
  refine (View.canon_cons_unit_of_not_mem (s := S1x512x2048) (off := ![0, 0, 0]) (size := ![1, 3, 2048])
    Gen.inb_S1x512x2048_S1x3x2048_0_0_0 w1 _ y (1 : Fin 3) (Or.inr (by show 0 + 3 ≤ (y 1).val; omega))).trans ?_
  rw [View.canon_unit_zero (S := S1x512x2048) hz]

end Cert.KernelIdeal.Pieces

end
-- ==== Proof.TileAt.lean ====
/-
  The output block, read entry by entry over the extended reals.

  Write `w k` for the weight of tap `k` at the entry's channel. From row 3 on, entry `r` of the block is
      ((w 3 · x[r] + w 2 · x[r-1]) + w 1 · x[r-2]) + w 0 · x[r-3]
  (a roll by `s` along the rows puts row `r - s` at row `r`, with no wrap-around when `s ≤ r`); in rows 0, 1, 2 it is
      ((w 0 · e[r] + w 1 · e[r+1]) + w 2 · e[r+2]) + w 3 · e[r+3]
  where `e` is the six-row window whose rows 0..2 are the carried rows and whose rows 3..5 are the block's rows 0..2.
-/
import proofs.«109207_j21449066676463_2_alg».proof.Proof.Pieces
import Idealize.ShloMosaic.Lib.ValueIdx
import Idealize.ShloMosaic.Lib.KernelVsHost

noncomputable section

open Idealize.ShloMosaic Idealize.ShloMosaic.TcCoe Idealize.SL.Sem Idealize.ShloMosaic.ValueIdx

namespace Cert.KernelIdeal.TileAt

open Cert.KernelIdeal Cert.KernelIdeal.Gen Cert.KernelIdeal.Pieces

section Layout
variable {α : Type}

/-- Row `k` of the [4, 1, 2048] weight block, cut out as [1, 1, 2048]. -/
theorem weightRow (x1 : S4x1x2048.Idx → α) (k : ℕ) (hk : k < 4) (off : Fin 3 → ℕ) (hoff : off = ![k, 0, 0])
    (hs : S4x1x2048.Slices off S1x1x2048) (ch : Fin 2048) :
    extractStridedSlice S1x1x2048 off x1 hs (ix3 (0 : Fin 1) (0 : Fin 1) ch) = x1 (ix3 (⟨k, hk⟩ : Fin 4) (0 : Fin 1) ch) := by
  subst hoff
  refine extractStridedSlice_apply _ x1 hs _ _ (fun a => ?_)
  match a with
  | ⟨0, _⟩ => show k = k + 0; omega
  | ⟨1, _⟩ => show 0 = 0 + 0; omega
  | ⟨2, _⟩ => show ch.val = 0 + ch.val; omega

/-- A [1, 1, 2048] row broadcast along 512 rows. -/
theorem bcast512 (v : S1x1x2048.Idx → α) (hb : S1x1x2048.Broadcasts S1x512x2048) (r : Fin 512) (ch : Fin 2048) :
    broadcastTo S1x512x2048 v hb (ix3 (0 : Fin 1) r ch) = v (ix3 (0 : Fin 1) (0 : Fin 1) ch) := by
  refine broadcastTo_apply v hb _ _ (fun a => ?_)
  match a with
  | ⟨0, _⟩ => show 0 = if (1 : ℕ) = 1 then 0 else _; rw [if_pos rfl]
  | ⟨1, _⟩ => show 0 = if (1 : ℕ) = 1 then 0 else _; rw [if_pos rfl]
  | ⟨2, _⟩ => show ch.val = if (2048 : ℕ) = 1 then 0 else ch.val; rw [if_neg (by decide)]

/-- A [1, 1, 2048] row broadcast along 3 rows. -/
theorem bcast3 (v : S1x1x2048.Idx → α) (hb : S1x1x2048.Broadcasts S1x3x2048) (r : Fin 3) (ch : Fin 2048) :
    broadcastTo S1x3x2048 v hb (ix3 (0 : Fin 1) r ch) = v (ix3 (0 : Fin 1) (0 : Fin 1) ch) := by
  refine broadcastTo_apply v hb _ _ (fun a => ?_)
  match a with
  | ⟨0, _⟩ => show 0 = if (1 : ℕ) = 1 then 0 else _; rw [if_pos rfl]
  | ⟨1, _⟩ => show 0 = if (1 : ℕ) = 1 then 0 else _; rw [if_pos rfl]
  | ⟨2, _⟩ => show ch.val = if (2048 : ℕ) = 1 then 0 else ch.val; rw [if_neg (by decide)]

/-- The block rolled by `s` rows, read at a row `r ≥ s`: row `r - s`. -/
theorem rolled_apply (x0 : S1x512x2048.Idx → α) (sb : BitVec 32) (s : ℕ) (hsb : sb.toNat = s)
    (hr : S1x512x2048.Rotates 1 none) (r : Fin 512) (ch : Fin 2048) (hs : s ≤ r.val) :
    dynamicRotate 1 sb none x0 hr (ix3 (0 : Fin 1) r ch)
      = x0 (ix3 (0 : Fin 1) (⟨r.val - s, by have := r.isLt; omega⟩ : Fin 512) ch) := by
  refine dynamicRotate_apply 1 sb x0 hr _ _ (fun b => ?_)
  match b with
  | ⟨0, h0⟩ => exact (if_neg (fun h => absurd (Fin.val_eq_of_eq h) Nat.zero_ne_one)).symm
  | ⟨1, h1⟩ =>
    rw [if_pos (show (⟨1, h1⟩ : Fin S1x512x2048.rank) = 1 from rfl), hsb]
    have := r.isLt
    show r.val - s = (r.val + 512 - s % 512) % 512
    omega
  | ⟨2, h2⟩ => exact (if_neg (fun h => absurd (Fin.val_eq_of_eq h) (show ¬((2 : ℕ) = 1) from by decide))).symm

/-- Three rows cut out of the six-row window from row `k`. -/
theorem windowRows (v : S1x6x2048.Idx → α) (k : ℕ) (hk : k ≤ 3) (off : Fin 3 → ℕ) (hoff : off = ![0, k, 0])
    (hs : S1x6x2048.Slices off S1x3x2048) (r : Fin 3) (ch : Fin 2048) :
    extractStridedSlice S1x3x2048 off v hs (ix3 (0 : Fin 1) r ch)
      = v (ix3 (0 : Fin 1) (⟨k + r.val, by have := r.isLt; omega⟩ : Fin 6) ch) := by
  subst hoff
  refine extractStridedSlice_apply _ v hs _ _ (fun a => ?_)
  match a with
  | ⟨0, _⟩ => show 0 = 0 + 0; omega
  | ⟨1, _⟩ => show k + r.val = k + r.val; rfl
  | ⟨2, _⟩ => show ch.val = 0 + ch.val; omega

end Layout

/-- The six-row window: its first three rows are the carried rows, -/
theorem window_lo (x0 : Vec Ideal S1x512x2048 .f32) (hl : Vec Ideal S1x3x2048 .f32) (j : Fin 6) (ch : Fin 2048) (hj : j.val < 3) :
    k0_pay10 (F := Ideal) x0 hl (ix3 (0 : Fin 1) j ch) = hl (ix3 (0 : Fin 1) (⟨j.val, hj⟩ : Fin 3) ch) := by
  unfold k0_pay10
  refine concatenate_pair_apply_left (t := S1x6x2048) (s₁ := S1x3x2048) (s₂ := S1x3x2048) (1 : Fin 3) hl _ _ (ix3 (0 : Fin 1) j ch) rfl
    (ix3 (0 : Fin 1) (⟨j.val, hj⟩ : Fin 3) ch) (fun b => ?_)
  match b with
  | ⟨0, _⟩ => rfl
  | ⟨1, _⟩ => rfl
  | ⟨2, _⟩ => rfl

/-- and its last three the block's first three. -/
theorem window_hi (x0 : Vec Ideal S1x512x2048 .f32) (hl : Vec Ideal S1x3x2048 .f32) (j : Fin 6) (ch : Fin 2048) (hj : 3 ≤ j.val) :
    k0_pay10 (F := Ideal) x0 hl (ix3 (0 : Fin 1) j ch)
      = x0 (ix3 (0 : Fin 1) (⟨j.val - 3, by have := j.isLt; omega⟩ : Fin 512) ch) := by
  unfold k0_pay10
  have hj6 := j.isLt
  refine (concatenate_pair_apply_right (t := S1x6x2048) (s₁ := S1x3x2048) (s₂ := S1x3x2048) (1 : Fin 3) hl _ _ (ix3 (0 : Fin 1) j ch) rfl rfl
    (ix3 (0 : Fin 1) (⟨j.val - 3, by omega⟩ : Fin 3) ch) (fun b hb => ?_) (by show j.val - 3 + 3 = j.val; omega)).trans ?_
  · match b with
    | ⟨0, _⟩ => rfl
    | ⟨1, _⟩ => exact absurd rfl hb
    | ⟨2, _⟩ => rfl
  · refine extractStridedSlice_apply _ x0 _ _ _ (fun a => ?_)
    match a with
    | ⟨0, _⟩ => show 0 = 0 + 0; omega
    | ⟨1, _⟩ => show j.val - 3 = 0 + (j.val - 3); omega
    | ⟨2, _⟩ => show ch.val = 0 + ch.val; omega

/-- The weight of tap `k` at channel `ch`, as the body reads it. -/
abbrev wt (x1 : Vec Ideal S4x1x2048 .f32) (k : Fin 4) (ch : Fin 2048) : EReal := x1 (ix3 k (0 : Fin 1) ch)

/-- Entry `r ≥ 3` of the output block. -/
theorem rolled_at (x0 : Vec Ideal S1x512x2048 .f32) (x1 : Vec Ideal S4x1x2048 .f32) (r : Fin 512) (ch : Fin 2048) (hr : 3 ≤ r.val) :
    k0_pay9 (F := Ideal) x0 x1 (ix3 (0 : Fin 1) r ch)
      = wt x1 3 ch * x0 (ix3 (0 : Fin 1) r ch)
        + wt x1 2 ch * x0 (ix3 (0 : Fin 1) (⟨r.val - 1, by have := r.isLt; omega⟩ : Fin 512) ch)
        + wt x1 1 ch * x0 (ix3 (0 : Fin 1) (⟨r.val - 2, by have := r.isLt; omega⟩ : Fin 512) ch)
        + wt x1 0 ch * x0 (ix3 (0 : Fin 1) (⟨r.val - 3, by have := r.isLt; omega⟩ : Fin 512) ch) := by
  unfold k0_pay9 k0_pay8 k0_pay7 k0_pay6 k0_pay5 k0_pay4
  dsimp only
  simp only [addf_apply, mulf_apply, shapeCast_self]
  rw [bcast512, bcast512, bcast512, bcast512,
    weightRow x1 3 (by omega) _ rfl, weightRow x1 2 (by omega) _ rfl, weightRow x1 1 (by omega) _ rfl, weightRow x1 0 (by omega) _ rfl,
    rolled_apply x0 1#32 1 rfl _ r ch (by omega), rolled_apply x0 2#32 2 rfl _ r ch (by omega),
    rolled_apply x0 3#32 3 rfl _ r ch (by omega)]
  rfl

/-- Entry `r < 3` of the output block, over the six-row window. -/
theorem edge_at (x0 : Vec Ideal S1x512x2048 .f32) (x1 : Vec Ideal S4x1x2048 .f32) (hl : Vec Ideal S1x3x2048 .f32)
    (r : Fin 3) (ch : Fin 2048) :
    edgeRows (F := Ideal) x0 x1 hl (ix3 (0 : Fin 1) r ch)
      = wt x1 0 ch * k0_pay10 (F := Ideal) x0 hl (ix3 (0 : Fin 1) (⟨0 + r.val, by have := r.isLt; omega⟩ : Fin 6) ch)
        + wt x1 1 ch * k0_pay10 (F := Ideal) x0 hl (ix3 (0 : Fin 1) (⟨1 + r.val, by have := r.isLt; omega⟩ : Fin 6) ch)
        + wt x1 2 ch * k0_pay10 (F := Ideal) x0 hl (ix3 (0 : Fin 1) (⟨2 + r.val, by have := r.isLt; omega⟩ : Fin 6) ch)
        + wt x1 3 ch * k0_pay10 (F := Ideal) x0 hl (ix3 (0 : Fin 1) (⟨3 + r.val, by have := r.isLt; omega⟩ : Fin 6) ch) := by
  unfold edgeRows k0_pay1 k0_pay11 k0_pay8 k0_pay7 k0_pay6 k0_pay5 k0_pay4
  dsimp only
  generalize k0_pay10 (F := Ideal) x0 hl = e
  simp only [addf_apply, mulf_apply, shapeCast_self]
  rw [bcast3, bcast3, bcast3, bcast3,
    weightRow x1 3 (by omega) _ rfl, weightRow x1 2 (by omega) _ rfl, weightRow x1 1 (by omega) _ rfl, weightRow x1 0 (by omega) _ rfl,
    windowRows e 0 (by omega) _ rfl, windowRows e 1 (by omega) _ rfl, windowRows e 2 (by omega) _ rfl,
    windowRows e 3 (by omega) _ rfl]
  rfl

end Cert.KernelIdeal.TileAt

end
-- ==== Proof.Carry.lean ====
/-
  What the output block and the carried rows hold after each grid point.

  The grid is 4 batches by 8 tiles, tiles innermost, so point `n` is tile `n % 8` of batch `n / 8`. After any
  point the carried buffer holds the last three rows of that point's input block; so at a point that is not a
  first tile the body finds there the last three rows of the block before, and at a first tile it zeroes the
  buffer. The output block after point `n` is therefore `tile` of the point's input block, the weights, and
  those rows (`found`).
-/
import proofs.«109207_j21449066676463_2_alg».proof.Proof.Pieces

noncomputable section

open Idealize.ShloMosaic Idealize.ShloMosaic.TcCoe Idealize.SL.Sem

namespace Cert.KernelIdeal.Carry

open Cert.KernelIdeal Cert.KernelIdeal.Gen Cert.KernelIdeal.Pieces

variable {F : FTy → Type} [FloatOps F]
variable (m : (ℓ : Loc nD τ sig) → Buf (Elt F) ℓ)

/-- After any point the carried buffer holds the last three rows of the point's input block. -/
theorem carried_eq (c : Dev nD) (t : Fin cfg0.N) :
    (outsAt0 m c t.val t.isLt).2 = k0_pay2 (iblk m c 0 t) := by
  by_cases h0 : t.val % 8 = 0
  · rw [outsAt0_A m c t h0]
    dsimp only
    exact carry_first c (grid0.coords t) (ms0_0 t) (hs0_0 t) (ms0_1 t) (hs0_1 t) (ms0_2 t) (hs0_2 t) scM0_0
      (Memref.isWhole_whole _) ((hcond0_0 t).mpr h0) (iblk m c 0 t) (iblk m c 1 t)
  · rw [outsAt0_B m c t h0]
    dsimp only
    exact carry_later c (grid0.coords t) (ms0_0 t) (hs0_0 t) (ms0_1 t) (hs0_1 t) (ms0_2 t) (hs0_2 t) scM0_0
      (Memref.isWhole_whole _) (fun h => h0 ((hcond0_0 t).mp h)) (iblk m c 0 t) (iblk m c 1 t)
      (outsAt0 m c (t.val - 1) (Nat.lt_of_le_of_lt (Nat.sub_le _ _) t.isLt)).2

/-- The rows the body works with at point `t` as "the three rows before the block": zeros at a first tile, the
    last three rows of the block before otherwise. -/
def found (c : Dev nD) (t : Fin cfg0.N) : Vec F S1x3x2048 .f32 :=
  if t.val % 8 = 0 then k0_pay3 else
    k0_pay2 (iblk m c 0 ⟨t.val - 1, Nat.lt_of_le_of_lt (Nat.sub_le _ _) t.isLt⟩)

/-- The output block after point `t`. -/
theorem out_eq (c : Dev nD) (t : Fin cfg0.N) :
    (outsAt0 m c t.val t.isLt).1 = tile (iblk m c 0 t) (iblk m c 1 t) (found m c t) := by
  unfold found
  by_cases h0 : t.val % 8 = 0
  · rw [outsAt0_A m c t h0, if_pos h0]
    dsimp only
    exact out_first c (grid0.coords t) (ms0_0 t) (hs0_0 t) (ms0_1 t) (hs0_1 t) (ms0_2 t) (hs0_2 t) scM0_0
      (Memref.isWhole_whole _) ((hcond0_0 t).mpr h0) (iblk m c 0 t) (iblk m c 1 t)
  · rw [outsAt0_B m c t h0, if_neg h0]
    dsimp only
    rw [out_later c (grid0.coords t) (ms0_0 t) (hs0_0 t) (ms0_1 t) (hs0_1 t) (ms0_2 t) (hs0_2 t) scM0_0
      (Memref.isWhole_whole _) (fun h => h0 ((hcond0_0 t).mp h)) (iblk m c 0 t) (iblk m c 1 t)
      (outsAt0 m c (t.val - 1) (Nat.lt_of_le_of_lt (Nat.sub_le _ _) t.isLt)).2]
    exact congrArg (tile (iblk m c 0 t) (iblk m c 1 t))
      (carried_eq m c ⟨t.val - 1, Nat.lt_of_le_of_lt (Nat.sub_le _ _) t.isLt⟩)

end Cert.KernelIdeal.Carry

end
-- ==== Proof.Blocks.lean ====
/-
  The windows' blocks, read off the argument arrays.

  Grid point `t` is tile `t % 8` of batch `t / 8`. The input window's block there holds rows
  `512 · (t % 8) … 512 · (t % 8) + 511` of batch `t / 8` of `x`; the output window's block is at the same
  place of the result; the weight window's one block is the whole [4, 1, 2048] array the host made from `w` by
  a transpose and a reshape, so its entry `(k, 0, ch)` is `w[ch, k]`.
-/
import proofs.«109207_j21449066676463_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps, decided over the grid. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0 :=
  (by decide +kernel : ∀ t : Fin grid0.N, _)

/-- The input block at point `t`, entry `(0, r, ch)`: `x` at batch `t / 8`, time `512 · (t % 8) + r`. -/
theorem xblock_apply (c : Dev nD) (t : Fin cfg0.N) (r : Fin 512) (ch : Fin 2048) (b : Fin 4) (u : Fin 4096)
    (hb : b.val = t.val / 8) (hu : u.val = 512 * (t.val % 8) + r.val) :
    (iblk m c 0 t : Vec F S1x512x2048 .f32) (ix3 (0 : Fin 1) r ch)
      = m ((c : Thread nD τ).loc main_arg0) (ix3 b u ch) := by
  obtain ⟨e0, e1, e2, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * 0 = b.val; rw [e0, hb]; omega
  | ⟨1, _⟩ => show win0_0.index t (1 : Fin 3) * 512 + 1 * r.val = u.val; rw [e1, hu]; omega
  | ⟨2, _⟩ => show win0_0.index t (2 : Fin 3) * 2048 + 1 * ch.val = ch.val; rw [e2]; omega

/-- The weight array the host hands the region: `w` transposed, with a unit axis in the middle. -/
theorem V_weights (c : Dev nD) :
    (V m c main_v1 : S4x1x2048.Idx → Elt F .f32)
      = shapeCast S4x1x2048 (transpose S4x2048 [1, 0] (m ((c : Thread nD τ).loc main_arg1)) transposes_S2048x4_S4x2048_1_0)
          shapeCasts_S4x2048_S4x1x2048 := by
  show StableHlo.after hostOps0 (fun b => m (c, b)) (Proc.devRef .tc main_v1) = _
  after_results
  rfl

/-- The weight block at any point, entry `(k, 0, ch)`: `w[ch, k]`. -/
theorem wblock_apply (c : Dev nD) (t : Fin cfg0.N) (k : Fin 4) (ch : Fin 2048) :
    (iblk m c 1 t : Vec F S4x1x2048 .f32) (ix3 k (0 : Fin 1) ch)
      = m ((c : Thread nD τ).loc main_arg1) (ix2 ch k) := by
  obtain ⟨-, -, -, e0, e1, e2, -⟩ := idx_facts t
  unfold iblk
  rw [View.read_apply]
  show V m c main_v1 _ = _
  rw [V_weights]
  have hk := k.isLt
  have hch := ch.isLt
  refine (shapeCast_apply _ shapeCasts_S4x2048_S4x1x2048 _ (ix2 k ch) ?_).trans ?_
  · rewrite [Shape.rowMajor_val_two, Shape.rowMajor_val_three]
    show k.val * 2048 + ch.val
      = ((win0_1.index t (0 : Fin 3) * 4 + 1 * k.val) * 1 + (win0_1.index t (1 : Fin 3) * 1 + 1 * 0)) * 2048
        + (win0_1.index t (2 : Fin 3) * 2048 + 1 * ch.val)
    rw [e0, e1, e2]; omega
  · exact transpose_apply [1, 0] _ transposes_S2048x4_S4x2048_1_0 (ix2 k ch) (ix2 ch k) (fun b => match b with
      | ⟨0, _⟩ => rfl
      | ⟨1, _⟩ => rfl)

end Cert.KernelIdeal.Blocks

end
-- ==== Proof.KernelConv.lean ====
/-
  Every grid point writes back its block of the convolution, so the result array ends holding the convolution.

  At tile `i` of batch `b`, row `r` of the input block is `x` at time `512 i + r`, that is the padded input at
  padded time `512 i + r + 3`. The six-row window the body builds — the carried rows, then the block's first
  three rows — is the padded input at padded times `512 i … 512 i + 5`: at a first tile (`i = 0`) the carried
  rows are zeros, which is the padding; at a later tile they are the last three rows of the block before, rows
  `509, 510, 511` of tile `i - 1` of the same batch, times `512 i - 3 … 512 i - 1`. So in rows 0, 1, 2 the body's
  four products are `w k · xp[t + k]` added oldest tap first, and from row 3 on they are `w k · xp[t + k]` read
  through the rolled copies and added newest tap first: both are the convolution's entry.
-/
import proofs.«109207_j21449066676463_2_alg».proof.Proof.Spec
import proofs.«109207_j21449066676463_2_alg».proof.Proof.TileAt
import proofs.«109207_j21449066676463_2_alg».proof.Proof.Carry
import proofs.«109207_j21449066676463_2_alg».proof.Proof.Blocks
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KernelConv

open Cert.KernelIdeal Cert.KernelIdeal.Gen Cert.KernelIdeal.Pieces Cert.KernelIdeal.TileAt Cert.KernelIdeal.Carry
  Cert.KernelIdeal.Blocks Cert.Conv

/-- The zero rows. -/
theorem zeros_at (j : S1x3x2048.Idx) : k0_pay3 (F := Ideal) j = 0 := by
  unfold k0_pay3
  rw [shapeCast_self]
  exact Ideal.ofBits_zero_f32

/-- The rows stored into the carried buffer: rows 509, 510, 511 of the block. -/
theorem lastRows_at (x : Vec Ideal S1x512x2048 .f32) (j : Fin 3) (ch : Fin 2048) :
    k0_pay2 (F := Ideal) x (ix3 (0 : Fin 1) j ch)
      = x (ix3 (0 : Fin 1) (⟨509 + j.val, by have := j.isLt; omega⟩ : Fin 512) ch) := by
  unfold k0_pay2
  rw [shapeCast_self]
  refine extractStridedSlice_apply _ x _ _ _ (fun a => ?_)
  match a with
  | ⟨0, _⟩ => show 0 = 0 + 0; omega
  | ⟨1, _⟩ => rfl
  | ⟨2, _⟩ => show ch.val = 0 + ch.val; omega

variable (m : (ℓ : Loc nD τ sig) → Buf (Elt Ideal) ℓ)

/-- The two argument arrays. -/
abbrev X (c : Dev nD) : SX.Idx → EReal := m ((c : Thread nD τ).loc main_arg0)
abbrev W (c : Dev nD) : SW.Idx → EReal := m ((c : Thread nD τ).loc main_arg1)

/-- The batch of grid point `t`. -/
abbrev batch (t : Fin cfg0.N) : Fin 4 := ⟨t.val / 8, by have := t.isLt; have hN : cfg0.N = 32 := N_0; omega⟩

/-- Row `r` of the input block at point `t` is the padded input at padded time `512 (t % 8) + r + 3`. -/
theorem row_at (c : Dev nD) (t : Fin cfg0.N) (r : Fin 512) (ch : Fin 2048) (s : ℕ) (hs : s = 512 * (t.val % 8) + r.val + 3) :
    (iblk m c 0 t : Vec Ideal S1x512x2048 .f32) (ix3 (0 : Fin 1) r ch) = padAt (X m c) (batch t) s ch := by
  have := r.isLt
  rw [xblock_apply m c t r ch (batch t) (⟨512 * (t.val % 8) + r.val, by omega⟩ : Fin 4096) rfl rfl]
  exact (padAt_eq (X m c) (batch t) s ch _ hs).symm

/-- Row `j` of the rows found in the carried buffer at point `t` is the padded input at padded time `512 (t % 8) + j`. -/
theorem found_at (c : Dev nD) (t : Fin cfg0.N) (j : Fin 3) (ch : Fin 2048) :
    found m c t (ix3 (0 : Fin 1) j ch) = padAt (X m c) (batch t) (512 * (t.val % 8) + j.val) ch := by
  have hj := j.isLt
  have ht := t.isLt
  have hN : cfg0.N = 32 := N_0
  unfold found
  by_cases h0 : t.val % 8 = 0
  · rw [if_pos h0, zeros_at, h0, padAt_of_lt _ _ _ _ (by omega)]
  · rw [if_neg h0, lastRows_at,
      xblock_apply m c ⟨t.val - 1, Nat.lt_of_le_of_lt (Nat.sub_le _ _) t.isLt⟩ (⟨509 + j.val, by omega⟩ : Fin 512) ch
        (batch t) (⟨512 * (t.val % 8) + j.val - 3, by omega⟩ : Fin 4096)
        (by show t.val / 8 = (t.val - 1) / 8; omega)
        (by show 512 * (t.val % 8) + j.val - 3 = 512 * ((t.val - 1) % 8) + (509 + j.val); omega)]
    exact (padAt_eq (X m c) (batch t) _ ch _ (by show 512 * (t.val % 8) + j.val = 512 * (t.val % 8) + j.val - 3 + 3; omega)).symm

/-- Row `j` of the six-row window at point `t` is the padded input at padded time `512 (t % 8) + j`. -/
theorem window_at (c : Dev nD) (t : Fin cfg0.N) (j : Fin 6) (ch : Fin 2048) (s : ℕ) (hs : s = 512 * (t.val % 8) + j.val) :
    k0_pay10 (F := Ideal) (iblk m c 0 t) (found m c t) (ix3 (0 : Fin 1) j ch) = padAt (X m c) (batch t) s ch := by
  have hj := j.isLt
  subst hs
  by_cases h3 : j.val < 3
  · rw [window_lo (iblk m c 0 t) (found m c t) j ch h3, found_at]
  · rw [window_hi (iblk m c 0 t) (found m c t) j ch (by omega),
      row_at m c t (⟨j.val - 3, by omega⟩ : Fin 512) ch (512 * (t.val % 8) + j.val) (by show _ = 512 * (t.val % 8) + (j.val - 3) + 3; omega)]

/-- Tap `k`'s weight as the body reads it is `w[ch, k]`. -/
theorem weight_at (c : Dev nD) (t : Fin cfg0.N) (k : Fin 4) (ch : Fin 2048) :
    wt (iblk m c 1 t) k ch = W m c (ix2 ch k) := wblock_apply m c t k ch

/-- Entry `(0, r, ch)` of the output block after point `t` is the convolution's entry at batch `t / 8`, time
    `512 (t % 8) + r`, channel `ch`. -/
theorem entry_eq (c : Dev nD) (t : Fin cfg0.N) (r : Fin 512) (ch : Fin 2048) (u : Fin 4096) (hu : u.val = 512 * (t.val % 8) + r.val) :
    tile (iblk m c 0 t) (iblk m c 1 t) (found m c t) (ix3 (0 : Fin 1) r ch) = convAt (X m c) (W m c) (batch t) u ch := by
  have hr := r.isLt
  unfold convAt
  by_cases h3 : r.val < 3
  · refine (tile_edge (iblk m c 0 t) (iblk m c 1 t) (found m c t) (ix3 (0 : Fin 1) r ch) (ix3 (0 : Fin 1) (⟨r.val, h3⟩ : Fin 3) ch)
      (fun a => match a with | ⟨0, _⟩ => rfl | ⟨1, _⟩ => rfl | ⟨2, _⟩ => rfl)).trans ?_
    refine (edge_at (iblk m c 0 t) (iblk m c 1 t) (found m c t) (⟨r.val, h3⟩ : Fin 3) ch).trans ?_
    rw [window_at m c t _ ch u.val (by show u.val = 512 * (t.val % 8) + (0 + r.val); omega),
      window_at m c t _ ch (u.val + 1) (by show u.val + 1 = 512 * (t.val % 8) + (1 + r.val); omega),
      window_at m c t _ ch (u.val + 2) (by show u.val + 2 = 512 * (t.val % 8) + (2 + r.val); omega),
      window_at m c t _ ch (u.val + 3) (by show u.val + 3 = 512 * (t.val % 8) + (3 + r.val); omega),
      weight_at, weight_at, weight_at, weight_at]
    exact oldest_first _ _ _ _ _ _ _ _
  · have hr3 : 3 ≤ r.val := by omega
    refine (tile_rest (iblk m c 0 t) (iblk m c 1 t) (found m c t) (ix3 (0 : Fin 1) r ch) hr3).trans ?_
    refine (rolled_at (iblk m c 0 t) (iblk m c 1 t) r ch hr3).trans ?_
    rw [row_at m c t r ch (u.val + 3) (by omega),
      row_at m c t (⟨r.val - 1, by omega⟩ : Fin 512) ch (u.val + 2) (by show u.val + 2 = 512 * (t.val % 8) + (r.val - 1) + 3; omega),
      row_at m c t (⟨r.val - 2, by omega⟩ : Fin 512) ch (u.val + 1) (by show u.val + 1 = 512 * (t.val % 8) + (r.val - 2) + 3; omega),
      row_at m c t (⟨r.val - 3, by omega⟩ : Fin 512) ch u.val (by show u.val = 512 * (t.val % 8) + (r.val - 3) + 3; omega),
      weight_at, weight_at, weight_at, weight_at]
    exact newest_first _ _ _ _ _ _ _ _

end Cert.KernelIdeal.KernelConv

end
-- ==== Proof.KernelRun.lean ====
/-
  The kernel program's run, read: its first result ends at the convolution, its second at the last three time
  steps, its arguments unchanged.

  The output window's blocks tile the result array — the block of grid point `t` is rows
  `512 (t % 8) … 512 (t % 8) + 511` of batch `t / 8`, and index `(b, s, ch)` lies in the block of point
  `8 b + s / 512` — and each point writes back its block of the convolution, so the array ends at the convolution.
  The host lines after the region slice the last three time steps out of `x`, which the region left unchanged, and
  exchange time and channel.
-/
import proofs.«109207_j21449066676463_2_alg».proof.Proof.KernelConv
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.Pieces Cert.KernelIdeal.Carry Cert.KernelIdeal.Blocks
  Cert.KernelIdeal.KernelConv Cert.Conv

variable (m : (ℓ : Loc nD τ sig) → Buf (Elt Ideal) ℓ) (ρ : Dev nD → PrngReg)

/-- The output block after point `t`, as a function of the block index: the convolution at batch `t / 8`, time
    `512 (t % 8) + row`. -/
theorem block_eq (c : Dev nD) (t : Fin cfg0.N) :
    tile (iblk m c 0 t) (iblk m c 1 t) (found m c t)
      = fun j : S1x512x2048.Idx => conv (X m c) (W m c)
          (ix3 (batch t) (⟨512 * (t.val % 8) + (j 1).val, by have h : (j 1).val < 512 := (j 1).isLt; omega⟩ : Fin 4096) (j 2)) := by
  funext j
  obtain ⟨z, r, ch, rfl⟩ : ∃ (z : Fin 1) (r : Fin 512) (ch : Fin 2048), j = ix3 z r ch := ⟨j 0, j 1, j 2, eq_ix3 j⟩
  obtain rfl : z = 0 := Subsingleton.elim _ _
  exact entry_eq m c t r ch _ rfl

/-- What point `t` writes back is block `t` of the convolution. -/
theorem flushed_eq (c : Dev nD) (t : Fin cfg0.N) :
    (dats m 0 c).flushed 2 t = ((cfg0.win 2).blk t).view.read (Elt Ideal) (conv (X m c) (W m c)) := by
  show (cfg0.win 2).cut (grid0.coords t) ((dats m 0 c).after 2 t) = _
  rw [after0_2, out_eq, block_eq]
  obtain ⟨-, -, -, -, -, -, e0, e1, e2⟩ := idx_facts t
  funext j
  show conv (X m c) (W m c) (ix3 (batch t) (⟨512 * (t.val % 8) + (j 1).val, _⟩ : Fin 4096) (j 2))
    = conv (X m c) (W m c) (((cfg0.win 2).blk t).view.emb j)
  refine congrArg (conv (X m c) (W m c)) (funext fun a => Fin.ext ?_)
  match a with
  | ⟨0, _⟩ =>
    show t.val / 8 = win0_2.index t (0 : Fin 3) * 1 + 1 * (j 0).val
    have hj : (j 0).val < 1 := (j 0).isLt
    rw [e0]; omega
  | ⟨1, _⟩ =>
    show 512 * (t.val % 8) + (j 1).val = win0_2.index t (1 : Fin 3) * 512 + 1 * (j 1).val
    rw [e1]; omega
  | ⟨2, _⟩ =>
    show (j 2).val = win0_2.index t (2 : Fin 3) * 2048 + 1 * (j 2).val
    rw [e2]; omega

/-- An index of the result array is in point `t`'s block iff each coordinate is in the block's range. -/
theorem mem_blk (t : Fin cfg0.N) (i : S4x4096x2048.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v2).slice (win0_2.rect t)).set ↔ _
  rw [View.set_slice_whole, Rect.mem_set_unit]
  exact Iff.rfl

/-- Every index of the result array is in some point's block. -/
theorem cover (i : S4x4096x2048.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 2048 := (i 2).isLt
  have hN : cfg0.N = 32 := N_0
  have hlt : 8 * (i 0).val + (i 1).val / 512 < cfg0.N := by omega
  obtain ⟨-, -, -, -, -, -, e0, e1, e2⟩ := idx_facts ⟨8 * (i 0).val + (i 1).val / 512, hlt⟩
  refine ⟨⟨8 * (i 0).val + (i 1).val / 512, hlt⟩, flush0_2 _, ?_⟩
  rw [mem_blk]
  intro a
  match a with
  | ⟨0, _⟩ =>
    show win0_2.index ⟨8 * (i 0).val + (i 1).val / 512, hlt⟩ (0 : Fin 3) * 1 ≤ (i 0).val
      ∧ (i 0).val < win0_2.index ⟨8 * (i 0).val + (i 1).val / 512, hlt⟩ (0 : Fin 3) * 1 + 1
    rw [e0]; show (8 * (i 0).val + (i 1).val / 512) / 8 * 1 ≤ (i 0).val ∧ (i 0).val < (8 * (i 0).val + (i 1).val / 512) / 8 * 1 + 1
    omega
  | ⟨1, _⟩ =>
    show win0_2.index ⟨8 * (i 0).val + (i 1).val / 512, hlt⟩ (1 : Fin 3) * 512 ≤ (i 1).val
      ∧ (i 1).val < win0_2.index ⟨8 * (i 0).val + (i 1).val / 512, hlt⟩ (1 : Fin 3) * 512 + 512
    rw [e1]; show (8 * (i 0).val + (i 1).val / 512) % 8 * 512 ≤ (i 1).val ∧ (i 1).val < (8 * (i 0).val + (i 1).val / 512) % 8 * 512 + 512
    omega
  | ⟨2, _⟩ =>
    show win0_2.index ⟨8 * (i 0).val + (i 1).val / 512, hlt⟩ (2 : Fin 3) * 2048 ≤ (i 2).val
      ∧ (i 2).val < win0_2.index ⟨8 * (i 0).val + (i 1).val / 512, hlt⟩ (2 : Fin 3) * 2048 + 2048
    rw [e2]; omega

/-- The result array after the region: the convolution. -/
theorem final (c : Dev nD) : (dats m 0 c).arrAt 2 cfg0.N = conv (X m c) (W m c) :=
  (dats m 0 c).arrAt_eq_of_cover 2 (conv (X m c) (W m c)) (fun t _ => flushed_eq m c t) cover

/-- The input array after the region: as launched. -/
theorem kept_x (c : Dev nD) : (dats m 0 c).arrAt 0 cfg0.N = X m c :=
  ((dats m 0 c).arrAt_in 0 rfl _).trans ((A_eq m c 0).trans (V_main_arg0 m c))

/-- The second result, after the host lines that follow the region: the last three time steps. -/
theorem tail_eq (c : Dev nD) :
    Pipeline.afterTail₀ cfgs (dats m) 0 (V0 m) [hostOps1] c main_v4 = lastSteps (X m c) := by
  unfold Pipeline.afterTail₀
  show StableHlo.after hostOps1 _ (Proc.devRef .tc main_v4) = _
  after_results
  have hx : Pipeline.withArrays (cfgs 0).spec c (V0 m c) (fun w => (dats m 0 c).arrAt w (cfgs 0).N)
      (Proc.devRef .tc main_arg0) = X m c :=
    (Pipeline.withArrays_arr spec0 launch0.win.arr_inj c _ _ 0).trans (kept_x m c)
  rw [hx]
  funext i
  obtain ⟨b, ch, s, rfl⟩ : ∃ (b : Fin 4) (ch : Fin 2048) (s : Fin 3), i = ix3 b ch s := ⟨i 0, i 1, i 2, eq_ix3 i⟩
  have hs := s.isLt
  refine (transpose_apply [0, 2, 1] _ transposes_S4x3x2048_S4x2048x3_0_2_1 (ix3 b ch s) (ix3 b s ch)
    (fun a => match a with | ⟨0, _⟩ => rfl | ⟨1, _⟩ => rfl | ⟨2, _⟩ => rfl)).trans ?_
  refine (extractStridedSlice_apply ![0, 4093, 0] (X m c) slices_S4x4096x2048_S4x3x2048_0_4093_0 (ix3 b s ch)
    (ix3 b (⟨4093 + s.val, by omega⟩ : Fin 4096) ch) (fun a => match a with
      | ⟨0, _⟩ => by show b.val = 0 + b.val; omega
      | ⟨1, _⟩ => rfl
      | ⟨2, _⟩ => by show ch.val = 0 + ch.val; omega)).trans ?_
  rfl

/-- The run, read. -/
theorem run : θ_run defs (onTc (τ := τ) (main (F := Ideal))) ⟨m, fun _ => 0, ρ⟩ fun r => ∀ c : Dev nD,
      r.2.mem ((c.tc : Thread nD τ).loc main_v2) = conv (X m c) (W m c)
      ∧ r.2.mem ((c.tc : Thread nD τ).loc main_v4) = lastSteps (X m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c),
      ((h c).2 main_v4 (Pipeline.mem_restRefs_of main_v4 (by decide) (by decide))).trans (tail_eq m c),
      ((h c).1 0).trans (kept_x m c),
      ((h c).2 main_arg1 (Pipeline.mem_restRefs_of main_arg1 (by decide) (by decide))).trans (W_main_arg1 m (dats m) c)⟩)
    (run_main m ρ)

end Cert.KernelIdeal.KernelRun

end
-- ==== Proof.RefConv.lean ====
/-
  The reference's two results are the convolution and the last three time steps, index by index.

  The reference pads `x` on the left of the time axis with three copies of the integer `0` converted to a
  float (which is `0`), takes the four windows `xp[k : k + 4096]`, multiplies window `k` by column `k` of `w`
  broadcast along batch and time, and adds the products to a zero array, first to last.
-/
import proofs.«109207_j21449066676463_2_alg».proof.Proof.Spec
import proofs.«109207_j21449066676463_2_alg».proof.Proof.Gen.ReferenceIdeal.Read
import Idealize.ShloMosaic.Lib.KernelVsHost
import Idealize.ShloMosaic.PureOps.Ideal.Laws

noncomputable section

namespace Cert.ReferenceIdeal.RefConv

open Cert.ReferenceIdeal Cert.ReferenceIdeal.Gen Cert.ReferenceIdeal.Read
open Idealize.ShloMosaic Idealize.ShloMosaic.ValueIdx Cert.Conv

/-- The padding value: the integer zero, converted. -/
theorem padValue (i : S_.Idx) : val_main_call0_v0 (F := Ideal) i = 0 := by
  rw [val_main_call0_v0_apply, val_main_c_apply]
  show (((0#32 : BitVec 32).toInt : ℝ) : EReal) = 0
  simp

/-- The padded array at `(b, s, ch)`. -/
theorem padded_apply (x0 : FVec Ideal S4x4096x2048 .f32) (b : Fin 4) (s : Fin 4099) (ch : Fin 2048) :
    val_main_v0 (F := Ideal) x0 (ix3 b s ch) = padAt x0 b s.val ch := by
  unfold val_main_v0
  by_cases h3 : 3 ≤ s.val
  · have hs : s.val - 3 < 4096 := by have := s.isLt; omega
    rw [padAt_of_ge x0 b s.val ch h3 hs]
    refine pad_apply_of_inside ![0, 3, 0] ![0, 0, 0] ![0, 0, 0] x0 _ pads_S4x4096x2048_S4x4099x2048_000_300_000 h_S_
      (ix3 b s ch) (ix3 b ⟨s.val - 3, hs⟩ ch) (fun a => ?_)
    match a with
    | ⟨0, _⟩ => show b.val = 0 + b.val * (0 + 1); omega
    | ⟨1, _⟩ => show s.val = 3 + (s.val - 3) * (0 + 1); omega
    | ⟨2, _⟩ => show ch.val = 0 + ch.val * (0 + 1); omega
  · rw [padAt_of_lt x0 b s.val ch (by omega)]
    rw [pad_apply_of_not_inside ![0, 3, 0] ![0, 0, 0] ![0, 0, 0] x0 _ pads_S4x4096x2048_S4x4099x2048_000_300_000 h_S_
      (ix3 b s ch) (1 : Fin 3) (fun h => h3 h.1)]
    exact padValue _

/-- Column `k` of `w`, broadcast: at any index its entry for the index's channel. -/
theorem col0 (x1 : FVec Ideal S2048x4 .f32) (i : S4x4096x2048.Idx) :
    val_main_v5 (F := Ideal) x1 i = x1 (ix2 (i 2) (0 : Fin 4)) := by
  rw [val_main_v5_apply, val_main_v4_apply, val_main_v3_apply, val_main_v2_apply]
  refine congrArg x1 (funext fun a => Fin.ext ?_)
  match a with
  | ⟨0, _⟩ => show (i 2).val / 1 = (i 2).val; omega
  | ⟨1, _⟩ => rfl

theorem col1 (x1 : FVec Ideal S2048x4 .f32) (i : S4x4096x2048.Idx) :
    val_main_v13 (F := Ideal) x1 i = x1 (ix2 (i 2) (1 : Fin 4)) := by
  rw [val_main_v13_apply, val_main_v12_apply, val_main_v11_apply, val_main_v10_apply]
  refine congrArg x1 (funext fun a => Fin.ext ?_)
  match a with
  | ⟨0, _⟩ => show (i 2).val / 1 = (i 2).val; omega
  | ⟨1, _⟩ => rfl

theorem col2 (x1 : FVec Ideal S2048x4 .f32) (i : S4x4096x2048.Idx) :
    val_main_v20 (F := Ideal) x1 i = x1 (ix2 (i 2) (2 : Fin 4)) := by
  rw [val_main_v20_apply, val_main_v19_apply, val_main_v18_apply, val_main_v17_apply]
  refine congrArg x1 (funext fun a => Fin.ext ?_)
  match a with
  | ⟨0, _⟩ => show (i 2).val / 1 = (i 2).val; omega
  | ⟨1, _⟩ => rfl

theorem col3 (x1 : FVec Ideal S2048x4 .f32) (i : S4x4096x2048.Idx) :
    val_main_v27 (F := Ideal) x1 i = x1 (ix2 (i 2) (3 : Fin 4)) := by
  rw [val_main_v27_apply, val_main_v26_apply, val_main_v25_apply, val_main_v24_apply]
  refine congrArg x1 (funext fun a => Fin.ext ?_)
  match a with
  | ⟨0, _⟩ => show (i 2).val / 1 = (i 2).val; omega
  | ⟨1, _⟩ => rfl

/-- Window `k` of the padded array at `(b, t, ch)` is the padded array at time `t + k`. -/
theorem window_apply (x0 : FVec Ideal S4x4096x2048 .f32) (b : Fin 4) (t : Fin 4096) (ch : Fin 2048) (k : ℕ) (hk : k ≤ 3)
    (j : S4x4099x2048.Idx) (h0 : (j 0).val = b.val) (h1 : (j 1).val = t.val + k) (h2 : (j 2).val = ch.val) :
    val_main_v0 (F := Ideal) x0 j = padAt x0 b (t.val + k) ch := by
  have e : j = ix3 b (⟨t.val + k, by have := t.isLt; omega⟩ : Fin 4099) ch := by
    funext a
    match a with
    | ⟨0, _⟩ => exact Fin.ext h0
    | ⟨1, _⟩ => exact Fin.ext h1
    | ⟨2, _⟩ => exact Fin.ext h2
  rw [e, padded_apply]

/-- The first result is the convolution. -/
theorem result_conv (x0 : FVec Ideal S4x4096x2048 .f32) (x1 : FVec Ideal S2048x4 .f32) :
    val_main_v29 (F := Ideal) x0 x1 = conv x0 x1 := by
  funext i
  obtain ⟨b, t, ch, rfl⟩ : ∃ (b : Fin 4) (t : Fin 4096) (ch : Fin 2048), i = ix3 b t ch := ⟨i 0, i 1, i 2, eq_ix3 i⟩
  rw [val_main_v29_apply, val_main_v22_apply, val_main_v15_apply, val_main_v8_apply, val_main_v28_apply, val_main_v21_apply,
    val_main_v14_apply, val_main_v6_apply, val_main_v7_apply, val_main_cst_apply, col0, col1, col2, col3,
    val_main_v1_apply, val_main_v9_apply, val_main_v16_apply, val_main_v23_apply,
    window_apply x0 b t ch 0 (by omega) _ rfl rfl rfl, window_apply x0 b t ch 1 (by omega) _ rfl (Nat.add_comm 1 t.val) rfl,
    window_apply x0 b t ch 2 (by omega) _ rfl (Nat.add_comm 2 t.val) rfl, window_apply x0 b t ch 3 (by omega) _ rfl (Nat.add_comm 3 t.val) rfl]
  simp only [Ideal.addf_def, Ideal.mulf_def, Ideal.ofBits_def, Ideal.ofBits_zero_f32]
  rfl

/-- The second result is the last three time steps. -/
theorem result_last (x0 : FVec Ideal S4x4096x2048 .f32) :
    val_main_v31 (F := Ideal) x0 = lastSteps x0 := by
  funext i
  obtain ⟨b, ch, s, rfl⟩ : ∃ (b : Fin 4) (ch : Fin 2048) (s : Fin 3), i = ix3 b ch s := ⟨i 0, i 1, i 2, eq_ix3 i⟩
  have hs : s.val < 3 := s.isLt
  rw [val_main_v31_apply, val_main_v30_apply]
  have e : idx_main_v30 (idx_main_v31 (ix3 b ch s))
      = ix3 b (⟨4096 + s.val, by omega⟩ : Fin 4099) ch := by
    funext a
    match a with
    | ⟨0, _⟩ => rfl
    | ⟨1, _⟩ => rfl
    | ⟨2, _⟩ => rfl
  rw [e, padded_apply, padAt_of_ge x0 b (4096 + s.val) ch (by omega) (by omega)]
  unfold lastSteps
  refine congrArg x0 (funext fun a => Fin.ext ?_)
  match a with
  | ⟨0, _⟩ => rfl
  | ⟨1, _⟩ => show 4096 + s.val - 3 = 4093 + s.val; omega
  | ⟨2, _⟩ => rfl

end Cert.ReferenceIdeal.RefConv

end
-- ==== Proof.lean ====
/-
  The five claims of the causal depthwise convolution.

  Both idealized programs compute, at entry `(b, t, ch)`, the sum of the four products `w[ch, k] · xp[b, t + k, ch]`
  of the weights with the input padded by three zeros on the left of the time axis, and both return the input's last
  three time steps with time and channel exchanged. The kernel computes the sum tile by tile, carrying the last
  three rows of each tile to the next tile of the same batch (zeros at a batch's first tile), adding newest tap
  first from row 3 of a tile on and oldest tap first in rows 0, 1, 2; the reference adds the four shifted windows of
  the padded array to a zero array, oldest tap first. Over the extended reals these are one sum.

  The three frames are the programs' runs with the results dropped; nothing was rewritten between the kernel and
  its idealization, so the fourth claim is trivial.
-/
import proofs.«109207_j21449066676463_2_alg».proof.Defs
import proofs.«109207_j21449066676463_2_alg».proof.Proof.Gen.Kernel
import proofs.«109207_j21449066676463_2_alg».proof.Proof.Gen.Kernel.Frame
import proofs.«109207_j21449066676463_2_alg».proof.Proof.Gen.KernelIdeal
import proofs.«109207_j21449066676463_2_alg».proof.Proof.Gen.KernelIdeal.Frame
import proofs.«109207_j21449066676463_2_alg».proof.Proof.Gen.ReferenceIdeal
import proofs.«109207_j21449066676463_2_alg».proof.Proof.Gen.Pre_finite_inputs
import proofs.«109207_j21449066676463_2_alg».proof.Proof.Gen.ReferenceIdeal.Run
import proofs.«109207_j21449066676463_2_alg».proof.Proof.Gen.ReferenceIdeal.Read
import proofs.«109207_j21449066676463_2_alg».proof.Proof.KernelRun
import proofs.«109207_j21449066676463_2_alg».proof.Proof.RefConv
import Idealize.ShloMosaic.Adequacy
import Idealize.ShloMosaic.Init

noncomputable section

namespace Cert.Proof

open Idealize.ShloMosaic Idealize.SL.Sem Cert.Conv

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the convolution and the last three time steps of arguments that agree. -/
theorem algebraic : Cert.algebraic_KernelIdeal_ReferenceIdeal := by
  intro m ρ m' ρ' _ hagree
  refine ⟨fun c => conv (Cert.KernelIdeal.KernelConv.X m c) (Cert.KernelIdeal.KernelConv.W m c),
    fun c => lastSteps (Cert.KernelIdeal.KernelConv.X m c), Cert.KernelIdeal.KernelRun.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v29_eq, Cert.ReferenceIdeal.RefConv.result_conv, (hagree c).1, (hagree c).2]
  · rw [(h c).2.1, Cert.ReferenceIdeal.Read.val_main_v31_eq, Cert.ReferenceIdeal.RefConv.result_last, (hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
